-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x256 .f32) (main_arg1 : IVec S2x1600000 32) (main_arg2 : FVec F S1600000 .f32) (main_arg3 : FVec F S256x128 .f32) (main_arg4 : FVec F S128 .f32) (main_arg5 : FVec F S128x64 .f32) (main_arg6 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x256 : Shape := ⟨2, ![50000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000x1 : Shape := ⟨2, ![1600000, 1]⟩
abbrev S50000x128 : Shape := ⟨2, ![50000, 128]⟩
abbrev S2000x256 : Shape := ⟨2, ![2000, 256]⟩
abbrev S2000x128 : Shape := ⟨2, ![2000, 128]⟩
abbrev S_ : Shape := ⟨0, ![]⟩
abbrev S1600000x128 : Shape := ⟨2, ![1600000, 128]⟩
abbrev S1x128 : Shape := ⟨2, ![1, 128]⟩
abbrev S50000x64 : Shape := ⟨2, ![50000, 64]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 48
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1600000x1, .f32⟩
  | .hbm, ⟨12, _⟩ => ⟨S50000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S50000x128, .f32⟩
  | .hbm, ⟨26, _⟩ => ⟨S1600000x1, .i32⟩
  | .hbm, ⟨27, _⟩ => ⟨S50000x128, .f32⟩
  | .hbm, ⟨28, _⟩ => ⟨S1x128, .f32⟩
  | .hbm, ⟨29, _⟩ => ⟨S50000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S50000x64, .f32⟩
  | .hbm, ⟨43, _⟩ => ⟨S1600000x1, .i32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x64, .f32⟩
  | .local _ .vmem, ⟨9, _⟩ => ⟨S2000x64, .f32⟩
  | .local _ .vmem, ⟨10, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000_S1600000x1 : S1600000.ShapeCasts S1600000x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  shapeCasts_S64_S1x64 : S64.ShapeCasts S1x64
  bcast_S1x64_S50000x64_0_1 : S1x64.BroadcastsInDim S50000x64 (![0, 1] : Fin 2 → Fin S50000x64.rank)
  dot_S2000x256_S256x128_S2000x128_1_0_0_1_n_n_wf : DotDims.WF S2000x256 S256x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x64_S2000x64_1_0_0_1_n_n_wf : DotDims.WF S2000x128 S128x64 S2000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S50000x128 : Shape := ⟨2, ![50000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S50000x64 : Shape := ⟨2, ![50000, 64]⟩
abbrev S1600000x64 : Shape := ⟨2, ![1600000, 64]⟩
abbrev S1x64 : Shape := ⟨2, ![1, 64]⟩

abbrev nBuf : Space → Nat
  | .hbm => 54
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S50000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S50000x128, .f32⟩
  | .hbm, ⟨26, _⟩ => ⟨S1600000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S1600000x1, .f32⟩
  | .hbm, ⟨45, _⟩ => ⟨S1600000x64, .f32⟩
  | .hbm, ⟨46, _⟩ => ⟨S1600000x64, .f32⟩
  | .hbm, ⟨47, _⟩ => ⟨S_, .f32⟩
  | .hbm, ⟨48, _⟩ => ⟨S50000x64, .f32⟩
  | .hbm, ⟨49, _⟩ => ⟨S1600000x1, .i32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.KernelRun.lean ====
/-
  The idealized kernel's run with its result named.

  @main is five segments: a stretch of host operations, the first pallas_call, a second stretch, the second
  pallas_call, a last stretch.  The buffer contents at the segment boundaries are a fold from the launch memory:
  a stretch applies its operations, a pallas_call replaces its output array by what its write-backs leave and keeps
  everything else.  Every weakly fair execution terminates with every unscoped buffer at the last boundary's
  contents; read at the result buffer that is the result's value as a term of the fold, and read at an argument it
  is the argument as launched.
-/
import proofs.«120899_j59828894433328_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v34) = W5 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v34 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.ValueRun

end
-- ==== Proof.HostStretches.lean ====
/-
  The host operations around the two pallas_calls, each stretch read at the buffers it writes.

  Between the dense transforms the program aggregates over edges: for every edge `e` it gathers row `src e` of a
  node array (a negative index wraps by adding the node count), scales it by the edge's weight, and adds it into row
  `dst e` of an array of zeros.  `aggregate128` and `aggregate64` name that chain once, as a function of the node
  array, the two index vectors and the weights as a column.  The last stretch then adds the second bias along the rows.
  Every statement here is about the contents after a stretch from ARBITRARY contents before it: the buffers the
  stretch writes hold these functions of what was there, and every other buffer keeps what it held.
-/
import proofs.«120899_j59828894433328_2_alg».proof.Proof.Gen.KernelIdeal.Launch
import Idealize.ShloMosaic.Lib.StableHlo.Run

noncomputable section

namespace Cert.KernelIdeal.Stretch

open Cert.KernelIdeal Cert.KernelIdeal.Gen Idealize.ShloMosaic Idealize.ShloMosaic.TcCoe Idealize.SL.Sem
open Idealize.ShloMosaic.StableHlo

variable {F : FTy → Type} [FloatOps F]

/-- Source indices as a column, a negative one wrapped by the node count. -/
def wrapped (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- Rows gathered by source, scaled by the edge weight, summed into the destination rows (128 lanes). -/
def aggregate128 (h : (⟨S50000x128, .f32⟩ : BufTy).Contents (Elt F)) (src dst : (⟨S1600000, .i32⟩ : BufTy).Contents (Elt F))
    (ew : (⟨S1600000x1, .f32⟩ : BufTy).Contents (Elt F)) : (⟨S50000x128, .f32⟩ : BufTy).Contents (Elt F) :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst)
    (mulf (Host.gather gather_S50000x128_S1600000x1_S1600000x128_1_0_n_n_0_1_1128 h (wrapped src))
      (broadcastInDim S1600000x128 ![0, 1] bcast_S1600000x1_S1600000x128_0_1 ew))

/-- The same over 64 lanes. -/
def aggregate64 (h : (⟨S50000x64, .f32⟩ : BufTy).Contents (Elt F)) (src dst : (⟨S1600000, .i32⟩ : BufTy).Contents (Elt F))
    (ew : (⟨S1600000x1, .f32⟩ : BufTy).Contents (Elt F)) : (⟨S50000x64, .f32⟩ : BufTy).Contents (Elt F) :=
  Host.scatterAdd scatter_S50000x64_S1600000x1_S1600000x64_1_0_0_1
    (broadcastInDim S50000x64 ![] bcast_S_S50000x64 (constant S_ .f32 0x00000000#32))
    (broadcastInDim S1600000x1 ![0] bcast_S1600000_S1600000x1_0 dst)
    (mulf (Host.gather gather_S50000x64_S1600000x1_S1600000x64_1_0_n_n_0_1_164 h (wrapped src))
      (broadcastInDim S1600000x64 ![0, 1] bcast_S1600000x1_S1600000x64_0_1 ew))

variable (W : Valuation τ sig (Elt F))

/-! ## Before the first call: the index rows and the weight column -/

theorem pre_src : StableHlo.after (hostOps0 (F := F)) W (Proc.devRef .tc main_v1)
    = shapeCast S1600000 (extractStridedSlice S1x1600000 ![0, 0] (W (Proc.devRef .tc main_arg1)) slices_S2x1600000_S1x1600000_0_0) shapeCasts_S1x1600000_S1600000 := by
  dsimp only [hostOps0]; after_results; rfl
theorem pre_dst : StableHlo.after (hostOps0 (F := F)) W (Proc.devRef .tc main_v3)
    = shapeCast S1600000 (extractStridedSlice S1x1600000 ![1, 0] (W (Proc.devRef .tc main_arg1)) slices_S2x1600000_S1x1600000_1_0) shapeCasts_S1x1600000_S1600000 := by
  dsimp only [hostOps0]; after_results; rfl
theorem pre_weight : StableHlo.after (hostOps0 (F := F)) W (Proc.devRef .tc main_v4)
    = shapeCast S1600000x1 (W (Proc.devRef .tc main_arg2)) shapeCasts_S1600000_S1600000x1 := by
  dsimp only [hostOps0]; after_results; rfl

/-! ## Between the calls: the first aggregation and the first bias as a row -/

theorem mid_agg : StableHlo.after (hostOps1 (F := F)) W (Proc.devRef .tc main_v17)
    = aggregate128 (W (Proc.devRef .tc main_v5)) (W (Proc.devRef .tc main_v1)) (W (Proc.devRef .tc main_v3)) (W (Proc.devRef .tc main_v4)) := by
  dsimp only [hostOps1]; after_results; rfl
theorem mid_bias : StableHlo.after (hostOps1 (F := F)) W (Proc.devRef .tc main_v18)
    = shapeCast S1x128 (W (Proc.devRef .tc main_arg4)) shapeCasts_S128_S1x128 := by
  dsimp only [hostOps1]; after_results; rfl

/-! ## After the second call: the second aggregation plus the second bias -/

set_option maxHeartbeats 1000000 in
theorem tail_out : StableHlo.after (hostOps2 (F := F)) W (Proc.devRef .tc main_v34)
    = addf (aggregate64 (W (Proc.devRef .tc main_v19)) (W (Proc.devRef .tc main_v1)) (W (Proc.devRef .tc main_v3)) (W (Proc.devRef .tc main_v4)))
        (broadcastInDim S50000x64 ![0, 1] bcast_S1x64_S50000x64_0_1 (shapeCast S1x64 (W (Proc.devRef .tc main_arg6)) shapeCasts_S64_S1x64)) := by
  dsimp only [hostOps2]; after_results_simp <;> rfl

/-! ## What each stretch leaves alone -/

abbrev written0 : List (Ref sig .tc) := [main_v0, main_v1, main_v2, main_v3, main_v4]
abbrev written1 : List (Ref sig .tc) := [main_c, main_v6, main_v7, main_c_0, main_v8, main_v9, main_v10, main_v11, main_v12, main_v13, main_v14, main_cst, main_v15, main_v16, main_v17, main_v18]
abbrev written2 : List (Ref sig .tc) := [main_c_1, main_v20, main_v21, main_c_2, main_v22, main_v23, main_v24, main_v25, main_v26, main_v27, main_v28, main_cst_3, main_v29, main_v30, main_v31, main_v32, main_v33, main_v34]

theorem writes0 : (hostOps0 : List (HloOp τ sig (Elt F))).Forall fun op => op.writes ⊆ (written0.map (Proc.devRef (τ := τ) .tc)).toFinset := by
  simp only [List.Forall]; exact (by simp only [StableHlo.nullary_writes, StableHlo.unary_writes, StableHlo.binary_writes, StableHlo.ternary_writes, StableHlo.reshape_writes, Finset.singleton_subset_iff, List.mem_toFinset]; repeat' apply And.intro
                                     all_goals exact List.mem_map_of_mem (by decide))
theorem writes1 : (hostOps1 : List (HloOp τ sig (Elt F))).Forall fun op => op.writes ⊆ (written1.map (Proc.devRef (τ := τ) .tc)).toFinset := by
  simp only [List.Forall]; exact (by simp only [StableHlo.nullary_writes, StableHlo.unary_writes, StableHlo.binary_writes, StableHlo.ternary_writes, StableHlo.reshape_writes, Finset.singleton_subset_iff, List.mem_toFinset]; repeat' apply And.intro
                                     all_goals exact List.mem_map_of_mem (by decide))
theorem writes2 : (hostOps2 : List (HloOp τ sig (Elt F))).Forall fun op => op.writes ⊆ (written2.map (Proc.devRef (τ := τ) .tc)).toFinset := by
  simp only [List.Forall]; exact (by simp only [StableHlo.nullary_writes, StableHlo.unary_writes, StableHlo.binary_writes, StableHlo.ternary_writes, StableHlo.reshape_writes, Finset.singleton_subset_iff, List.mem_toFinset]; repeat' apply And.intro
                                     all_goals exact List.mem_map_of_mem (by decide))

theorem keep0 (r : Ref sig .tc) (h : r ∉ written0) : StableHlo.after (hostOps0 (F := F)) W (Proc.devRef .tc r) = W (Proc.devRef .tc r) :=
  StableHlo.after_of_writes_sub hostOps0 _ writes0 h
theorem keep1 (r : Ref sig .tc) (h : r ∉ written1) : StableHlo.after (hostOps1 (F := F)) W (Proc.devRef .tc r) = W (Proc.devRef .tc r) :=
  StableHlo.after_of_writes_sub hostOps1 _ writes1 h
theorem keep2 (r : Ref sig .tc) (h : r ∉ written2) : StableHlo.after (hostOps2 (F := F)) W (Proc.devRef .tc r) = W (Proc.devRef .tc r) :=
  StableHlo.after_of_writes_sub hostOps2 _ writes2 h

end Cert.KernelIdeal.Stretch

end
-- ==== Proof.Layer1Value.lean ====
/-
  Layer 1's dense transform, read as one array.

  The first pallas_call computes `x · W1` in 25 row blocks: grid point `t` loads rows `2000 t … 2000 t + 1999` of
  `x` (all 256 columns), the whole of `W1`, and stores the 2000 × 128 product of the two into rows
  `2000 t … 2000 t + 1999` of the output.  At the ideal instance the casts to bf16 are the identity and the
  matrix unit's product into a zero accumulator is the plain sum `∑ k, x (r, k) · W1 (k, c)`.  Entry `(r, c)` of
  the whole product only depends on row `r` of `x` and column `c` of `W1`, so each stored block is the
  corresponding block of the whole product, and since the 25 blocks tile the 50000 rows the output array ends as
  the whole product: the same sum by which the host's `dot_general` is read at an index.
-/
import proofs.«120899_j59828894433328_2_alg».proof.Proof.Gen.KernelIdeal.Frame
import proofs.«120899_j59828894433328_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.Pipeline (Dat)

theorem zero_off : (![0, 0] : Fin 2 → Nat) = fun _ => 0 := funext fun a => by fin_cases a <;> rfl

/-- Row `r` of the left block and contraction position `k`. -/
abbrev lrow (j : S2000x128.Idx) (k : Fin 256) : S2000x256.Idx := fun a => match a with
  | ⟨0, _⟩ => ⟨(j 0).val, (j 0).isLt⟩
  | ⟨1, _⟩ => ⟨k.val, k.isLt⟩
/-- Contraction position `k` and column `c` of the weight. -/
abbrev wcol (j : S2000x128.Idx) (k : Fin 256) : S256x128.Idx := fun a => match a with
  | ⟨0, _⟩ => ⟨k.val, k.isLt⟩
  | ⟨1, _⟩ => ⟨(j 1).val, (j 1).isLt⟩

theorem lhs_row (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_contr (j : S2000x128.Idx) (q : dot_S2000x256_S256x128_S2000x128_1_0_0_1_n_n.contr.Idx) :
    (dot_S2000x256_S256x128_S2000x128_1_0_0_1_n_n.lhsIdx j q 1).val = (q ⟨0, by decide⟩).val :=
  dot_S2000x256_S256x128_S2000x128_1_0_0_1_n_n.lhsIdx_val_of_single rfl j q
theorem rhs_contr (j : S2000x128.Idx) (q : dot_S2000x256_S256x128_S2000x128_1_0_0_1_n_n.contr.Idx) :
    (dot_S2000x256_S256x128_S2000x128_1_0_0_1_n_n.rhsIdx j q 0).val = (q ⟨0, by decide⟩).val :=
  dot_S2000x256_S256x128_S2000x128_1_0_0_1_n_n.rhsIdx_val_of_single rfl j q
theorem rhs_col (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The body's stored value at entry `(r, c)` of the block: the sum over `k` of the loaded rows' `(r, k)` times the
    loaded weight's `(k, c)`. -/
theorem block_product (x0 : Vec Ideal S2000x256 .f32) (x1 : Vec Ideal S256x128 .f32) (j : S2000x128.Idx) :
    k0_pay1 (F := Ideal) x0 x1 j = ∑ k : Fin 256, x0 (lrow j k) * x1 (wcol j k) := by
  unfold k0_pay1
  refine (Ideal.matmul_constant_zero_apply dot_S2000x256_S256x128_S2000x128_1_0_0_1_n_n none _ _ j).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = lrow j k := funext fun a => Fin.ext (by
    match a with
    | ⟨0, _⟩ => exact lhs_row _ _
    | ⟨1, _⟩ => exact (lhs_contr _ _).trans hk)
  have er : dot_S2000x256_S256x128_S2000x128_1_0_0_1_n_n.rhsIdx j ((ValueIdx.contrEquiv1 dot_S2000x256_S256x128_S2000x128_1_0_0_1_n_n 256 rfl rfl).symm k) = wcol j k := funext fun a => Fin.ext (by
    match a with
    | ⟨0, _⟩ => exact (rhs_contr _ _).trans hk
    | ⟨1, _⟩ => exact rhs_col _ _)
  show x0 _ * x1 _ = _
  rw [el, er]

/-- The printed index maps over the grid: the row block of `x` and of the output is the point's number, every other
    block index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product of the arrays the region finds. -/
theorem flushed_product (c : Dev nD) (t : Fin cfg0.N) :
    (dat0 (F := Ideal) V c).flushed 2 t
      = ((cfg0.win 2).blk t).view.read (Elt Ideal) (Cert.ReferenceIdeal.Read.val_main_v4 (F := Ideal) (V c main_arg0) (V c main_arg3)) := by
  show (cfg0.win 2).cut (grid0.coords t) ((dat0 V c).after 2 t) = _
  rw [after0_2]
  unfold out0_2
  rw [View.canon_unit_zero zero_off]
  simp only [View.ld_unit_zero (S := S2000x256) zero_off, View.ld_unit_zero (S := S256x128) zero_off]
  obtain ⟨e0, e1, e2, e3, e4, e5⟩ := index_facts t
  funext j
  show k0_pay1 (iblk0 V c 0 t) (iblk0 V c 1 t) j
    = Cert.ReferenceIdeal.Read.val_main_v4 (F := Ideal) (V c main_arg0) (V c main_arg3) (((cfg0.win 2).blk t).view.emb j)
  refine (block_product _ _ j).trans ?_
  refine Eq.trans ?_ (Cert.ReferenceIdeal.Read.val_main_v4_apply _ _ _).symm
  refine Finset.sum_congr rfl fun k _ => ?_
  have h0 : ((cfg0.win 0).blk t).view.emb (lrow j k) = Cert.ReferenceIdeal.Read.lidx_main_v4 (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : ((cfg0.win 1).blk t).view.emb (wcol j k) = Cert.ReferenceIdeal.Read.ridx_main_v4 (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  have r0 : ∀ y, iblk0 V c 0 t y = V c main_arg0 (((cfg0.win 0).blk t).view.emb y) := fun _ => rfl
  have r1 : ∀ y, iblk0 V c 1 t y = V c main_arg3 (((cfg0.win 1).blk t).view.emb y) := fun _ => rfl
  rw [r0, r1, h0, h1]

/-- An index of the output array is in point `t`'s block iff each coordinate is in the block's range on its axis. -/
theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v5).slice (win0_2.rect t)).set ↔ _
  rw [View.set_slice_whole, Rect.mem_set_unit]
  exact Iff.rfl

/-- Row `r` lies in the block of point `r / 2000`: the 25 blocks tile the 50000 rows. -/
theorem rows_covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 2000 := ⟨⟨(i 0).val / 2000, by show _ < grid0.N; rw [N_0]; omega⟩, rfl⟩
  obtain ⟨e0, e1, e2, e3, e4, e5⟩ := index_facts t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the output array is the whole product of the arrays the region found. -/
theorem array_eq (c : Dev nD) :
    (dat0 (F := Ideal) V c).arrAt 2 cfg0.N = Cert.ReferenceIdeal.Read.val_main_v4 (F := Ideal) (V c main_arg0) (V c main_arg3) :=
  (dat0 V c).arrAt_eq_of_cover 2 _ (fun t _ => flushed_product V c t) rows_covered

end Cert.KernelIdeal.Layer1

end
-- ==== Proof.Layer2Value.lean ====
/-
  Layer 2's fused transform, read as one array.

  The second pallas_call computes `relu (a + b) · W2` in 25 row blocks: grid point `t` loads rows
  `2000 t … 2000 t + 1999` of the aggregated array `a` (all 128 columns), the bias as a 1 × 128 row, the whole of
  `W2`, and stores the 2000 × 64 block `max (a + b, 0) · W2` into the same rows of the output.  At the ideal
  instance the casts are the identity, the maximum with the zero splat is `max · 0`, and the product into a zero
  accumulator is `∑ k, max (a (r, k) + b (0, k)) 0 · W2 (k, c)`.  Entry `(r, c)` only depends on row `r` of `a`, so
  every stored block is a block of the one array `hiddenAt a b W2`, and the 25 blocks tile the 50000 rows.
-/
import proofs.«120899_j59828894433328_2_alg».proof.Proof.Gen.KernelIdeal.Frame
import proofs.«120899_j59828894433328_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.Pipeline (Dat)

theorem zero_off : (![0, 0] : Fin 2 → Nat) = fun _ => 0 := funext fun a => by fin_cases a <;> rfl

/-- Row `r` of the loaded block of `a` and contraction position `k`. -/
abbrev hrow (j : S2000x64.Idx) (k : Fin 128) : S2000x128.Idx := fun a => match a with
  | ⟨0, _⟩ => ⟨(j 0).val, (j 0).isLt⟩
  | ⟨1, _⟩ => ⟨k.val, k.isLt⟩
/-- Position `k` of the bias row. -/
abbrev brow (k : Fin 128) : S1x128.Idx := fun a => match a with
  | ⟨0, _⟩ => ⟨0, Nat.one_pos⟩
  | ⟨1, _⟩ => ⟨k.val, k.isLt⟩
/-- Contraction position `k` and column `c` of the weight. -/
abbrev wcol (j : S2000x64.Idx) (k : Fin 128) : S128x64.Idx := fun a => match a with
  | ⟨0, _⟩ => ⟨k.val, k.isLt⟩
  | ⟨1, _⟩ => ⟨(j 1).val, (j 1).isLt⟩

theorem lhs_row (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_contr (j : S2000x64.Idx) (q : dot_S2000x128_S128x64_S2000x64_1_0_0_1_n_n.contr.Idx) :
    (dot_S2000x128_S128x64_S2000x64_1_0_0_1_n_n.lhsIdx j q 1).val = (q ⟨0, by decide⟩).val :=
  dot_S2000x128_S128x64_S2000x64_1_0_0_1_n_n.lhsIdx_val_of_single rfl j q
theorem rhs_contr (j : S2000x64.Idx) (q : dot_S2000x128_S128x64_S2000x64_1_0_0_1_n_n.contr.Idx) :
    (dot_S2000x128_S128x64_S2000x64_1_0_0_1_n_n.rhsIdx j q 0).val = (q ⟨0, by decide⟩).val :=
  dot_S2000x128_S128x64_S2000x64_1_0_0_1_n_n.rhsIdx_val_of_single rfl j q
theorem rhs_col (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The bias row broadcast along the 2000 rows, read at `(r, k)`, is the row's entry `k`. -/
theorem bias_bcast (x1 : Vec Ideal S1x128 .f32) (j : S2000x64.Idx) (k : Fin 128) :
    broadcastTo S2000x128 x1 broadcasts_S1x128_S2000x128 (hrow j k) = x1 (brow k) :=
  broadcastTo_apply x1 broadcasts_S1x128_S2000x128 (hrow j k) (brow k) (fun a => by
    match a with
    | ⟨0, _⟩ => rfl
    | ⟨1, _⟩ => rfl)

/-- The body's stored value at entry `(r, c)` of the block. -/
theorem block_hidden (x0 : Vec Ideal S2000x128 .f32) (x1 : Vec Ideal S1x128 .f32) (x2 : Vec Ideal S128x64 .f32) (j : S2000x64.Idx) :
    k1_pay1 (F := Ideal) x0 x1 x2 j
      = ∑ k : Fin 128, max (x0 (hrow j k) + x1 (brow k)) (Ideal.ofBits .f32 0x00000000#32) * x2 (wcol j k) := by
  unfold k1_pay1
  refine (Ideal.matmul_constant_zero_apply dot_S2000x128_S128x64_S2000x64_1_0_0_1_n_n none _ _ j).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = hrow j k := funext fun a => Fin.ext (by
    match a with
    | ⟨0, _⟩ => exact lhs_row _ _
    | ⟨1, _⟩ => exact (lhs_contr _ _).trans hk)
  have er : dot_S2000x128_S128x64_S2000x64_1_0_0_1_n_n.rhsIdx j ((ValueIdx.contrEquiv1 dot_S2000x128_S128x64_S2000x64_1_0_0_1_n_n 128 rfl rfl).symm k) = wcol j k := funext fun a => Fin.ext (by
    match a with
    | ⟨0, _⟩ => exact (rhs_contr _ _).trans hk
    | ⟨1, _⟩ => exact rhs_col _ _)
  rw [el, er]
  show max ((shapeCast S2000x128 x0 shapeCasts_S2000x128_S2000x128) (hrow j k)
        + (broadcastTo S2000x128 (shapeCast S1x128 x1 shapeCasts_S1x128_S1x128) broadcasts_S1x128_S2000x128) (hrow j k))
      (Ideal.ofBits .f32 0x00000000#32) * x2 (wcol j k) = _
  rw [shapeCast_self, shapeCast_self, bias_bcast]

/-- The array the region leaves: entry `(r, c)` is `∑ k, max (a (r, k) + b (0, k)) 0 · W2 (k, c)`. -/
def hiddenAt (A : S50000x128.Idx → EReal) (B : S1x128.Idx → EReal) (Wt : S128x64.Idx → EReal) : S50000x64.Idx → EReal :=
  fun i => ∑ k : Fin 128, max (A (Cert.ReferenceIdeal.Read.lidx_main_v22 i k) + B (brow k)) (Ideal.ofBits .f32 0x00000000#32) * Wt (Cert.ReferenceIdeal.Read.ridx_main_v22 i k)

/-- The printed index maps over the grid: the row block of `a` and of the output is the point's number, every other
    block index is zero. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of `hiddenAt` of the arrays the region finds. -/
theorem flushed_hidden (c : Dev nD) (t : Fin cfg1.N) :
    (dat1 (F := Ideal) V c).flushed 3 t
      = ((cfg1.win 3).blk t).view.read (Elt Ideal) (hiddenAt (V c main_v17) (V c main_v18) (V c main_arg5)) := by
  show (cfg1.win 3).cut (grid1.coords t) ((dat1 V c).after 3 t) = _
  rw [after1_3]
  unfold out1_3
  rw [View.canon_unit_zero zero_off]
  simp only [View.ld_unit_zero (S := S2000x128) zero_off, View.ld_unit_zero (S := S1x128) zero_off, View.ld_unit_zero (S := S128x64) zero_off]
  obtain ⟨e0, e1, e2, e3, e4, e5, e6, e7⟩ := index_facts t
  funext j
  show k1_pay1 (iblk1 V c 0 t) (iblk1 V c 1 t) (iblk1 V c 2 t) j
    = hiddenAt (V c main_v17) (V c main_v18) (V c main_arg5) (((cfg1.win 3).blk t).view.emb j)
  refine (block_hidden _ _ _ j).trans ?_
  unfold hiddenAt
  refine Finset.sum_congr rfl fun k _ => ?_
  have h0 : ((cfg1.win 0).blk t).view.emb (hrow j k) = Cert.ReferenceIdeal.Read.lidx_main_v22 (((cfg1.win 3).blk t).view.emb j) k := by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * k.val = k.val; omega
  have h1 : ((cfg1.win 1).blk t).view.emb (brow k) = brow k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (wcol j k) = Cert.ReferenceIdeal.Read.ridx_main_v22 (((cfg1.win 3).blk t).view.emb j) k := by
    funext a; apply Fin.ext
    match a with
    | ⟨0, _⟩ => show win1_2.index t (0 : Fin 2) * 128 + 1 * k.val = k.val; omega
    | ⟨1, _⟩ => show win1_2.index t (1 : Fin 2) * 64 + 1 * (j 1).val = win1_3.index t (1 : Fin 2) * 64 + 1 * (j 1).val; omega
  have r0 : ∀ y, iblk1 V c 0 t y = V c main_v17 (((cfg1.win 0).blk t).view.emb y) := fun _ => rfl
  have r1 : ∀ y, iblk1 V c 1 t y = V c main_v18 (((cfg1.win 1).blk t).view.emb y) := fun _ => rfl
  have r2 : ∀ y, iblk1 V c 2 t y = V c main_arg5 (((cfg1.win 2).blk t).view.emb y) := fun _ => rfl
  rw [r0, r1, r2, h0, h1, h2]

/-- An index of the output array is in point `t`'s block iff each coordinate is in the block's range on its axis. -/
theorem mem_block (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v19).slice (win1_3.rect t)).set ↔ _
  rw [View.set_slice_whole, Rect.mem_set_unit]
  exact Iff.rfl

/-- Row `r` lies in the block of point `r / 2000`: the 25 blocks tile the 50000 rows. -/
theorem rows_covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ : ∃ t : Fin cfg1.N, t.val = (i 0).val / 2000 := ⟨⟨(i 0).val / 2000, by show _ < grid1.N; rw [N_1]; omega⟩, rfl⟩
  obtain ⟨e0, e1, e2, e3, e4, e5, e6, e7⟩ := index_facts t
  refine ⟨t, flush1_3 t, ?_⟩
  rw [mem_block]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- After the region the output array is `hiddenAt` of the arrays the region found. -/
theorem array_eq (c : Dev nD) :
    (dat1 (F := Ideal) V c).arrAt 3 cfg1.N = hiddenAt (V c main_v17) (V c main_v18) (V c main_arg5) :=
  (dat1 V c).arrAt_eq_of_cover 3 _ (fun t _ => flushed_hidden V c t) rows_covered

end Cert.KernelIdeal.Layer2

end
-- ==== Proof.RefBridge.lean ====
/-
  The reference's stages in the kernel's vocabulary.

  Three spellings differ between the two programs and denote the same arrays: the kernel reshapes the weight vector
  into a column `[E] → [E, 1]` and each bias into a row `[n] → [1, n]`, where the reference broadcasts along a new
  unit axis; in row-major order an array and the same array with a unit axis added have the same elements at the
  same positions.  And the reference's second dense transform, the host's `dot_general` of `max (agg + bias, 0)` with
  `W2`, read at entry `(r, c)`, is the sum `∑ k, max (agg (r, k) + bias (0, k)) 0 · W2 (k, c)` by which the kernel's
  second region was read.
-/
import proofs.«120899_j59828894433328_2_alg».proof.Proof.Gen.ReferenceIdeal.Read
import proofs.«120899_j59828894433328_2_alg».proof.Proof.Layer2Value
import Idealize.ShloMosaic.Lib.Pipeline.Value

noncomputable section

namespace Cert.ReferenceIdeal.Bridge

open Cert.ReferenceIdeal Cert.ReferenceIdeal.Gen Cert.ReferenceIdeal.Read
open Idealize.ShloMosaic Idealize.ShloMosaic.TcCoe Idealize.SL.Sem

variable {F : FTy → Type} [FloatOps F]

/-- A vector reshaped into a column is the vector broadcast along a new last axis. -/
theorem weight_column (x2 : (⟨S1600000, .f32⟩ : BufTy).Contents (Elt F)) (h : S1600000.ShapeCasts S1600000x1) :
    shapeCast S1600000x1 x2 h = val_main_v12 (F := F) x2 := by
  funext i
  rw [val_main_v12_apply]
  exact shapeCast_apply x2 h i (idx_main_v12 i) (by
    rewrite [Shape.rowMajor_val_one, Shape.rowMajor_val_two]
    have h1 : (i 1).val < 1 := (i 1).isLt
    show (i 0).val = (i 0).val * 1 + (i 1).val
    omega)

/-- A vector of 128 reshaped into a row is the vector broadcast along a new first axis. -/
theorem bias_row128 (x4 : (⟨S128, .f32⟩ : BufTy).Contents (Elt F)) (h : S128.ShapeCasts S1x128) :
    shapeCast S1x128 x4 h = val_main_v18 (F := F) x4 := by
  funext i
  rw [val_main_v18_apply]
  exact shapeCast_apply x4 h i (idx_main_v18 i) (by
    rewrite [Shape.rowMajor_val_one, Shape.rowMajor_val_two]
    have h0 : (i 0).val < 1 := (i 0).isLt
    show (i 1).val = (i 0).val * 128 + (i 1).val
    omega)

/-- The same for a vector of 64. -/
theorem bias_row64 (x6 : (⟨S64, .f32⟩ : BufTy).Contents (Elt F)) (h : S64.ShapeCasts S1x64) :
    shapeCast S1x64 x6 h = val_main_v36 (F := F) x6 := by
  funext i
  rw [val_main_v36_apply]
  exact shapeCast_apply x6 h i (idx_main_v36 i) (by
    rewrite [Shape.rowMajor_val_one, Shape.rowMajor_val_two]
    have h0 : (i 0).val < 1 := (i 0).isLt
    show (i 1).val = (i 0).val * 64 + (i 1).val
    omega)

/-- The reference's second dense transform is `hiddenAt` of its aggregated array, its bias row and `W2`. -/
theorem hidden_stage (x0 : (⟨S50000x256, .f32⟩ : BufTy).Contents (Elt Ideal)) (x1 : (⟨S2x1600000, .i32⟩ : BufTy).Contents (Elt Ideal)) (x2 : (⟨S1600000, .f32⟩ : BufTy).Contents (Elt Ideal))
    (x3 : (⟨S256x128, .f32⟩ : BufTy).Contents (Elt Ideal)) (x4 : (⟨S128, .f32⟩ : BufTy).Contents (Elt Ideal)) (x5 : (⟨S128x64, .f32⟩ : BufTy).Contents (Elt Ideal)) :
    val_main_v22 (F := Ideal) x0 x1 x2 x3 x4 x5
      = Cert.KernelIdeal.Layer2.hiddenAt (val_main_v17 (F := Ideal) x0 x1 x2 x3) (val_main_v18 (F := Ideal) x4) x5 := by
  funext i
  rw [val_main_v22_apply]
  unfold Cert.KernelIdeal.Layer2.hiddenAt
  refine Finset.sum_congr rfl fun k _ => ?_
  rw [val_main_v21_apply, val_main_v20_apply, val_main_v19_apply, val_main_call0_v0_apply]
  have hb : idx_main_v19 (lidx_main_v22 i k) = Cert.KernelIdeal.Layer2.brow k := funext fun a => by
    match a with
    | ⟨0, _⟩ => rfl
    | ⟨1, _⟩ => rfl
  rw [hb]
  rfl

end Cert.ReferenceIdeal.Bridge

end
-- ==== Proof.KernelValue.lean ====
/-
  The kernel's result as a function of its arguments.

  The result buffer's contents after the run are a term of the fold through @main's five segments.  Walking the fold
  back: the last stretch adds the second bias to the second aggregation of what the second region wrote; that
  region's array is `hiddenAt` of the first aggregation, the first bias row and `W2`; the first aggregation is taken
  of what the first region wrote, which is the product `x · W1`; and the index rows, the weight column and the
  arguments pass through every later segment untouched.  Each of these arrays is the reference's stage of the same
  name, so the result is the reference's result term of the same arguments.
-/
import proofs.«120899_j59828894433328_2_alg».proof.Proof.HostStretches
import proofs.«120899_j59828894433328_2_alg».proof.Proof.Layer1Value
import proofs.«120899_j59828894433328_2_alg».proof.Proof.Layer2Value
import proofs.«120899_j59828894433328_2_alg».proof.Proof.RefBridge

set_option maxRecDepth 16384

noncomputable section

namespace Cert.KernelIdeal.Result

open Cert.KernelIdeal Cert.KernelIdeal.Gen Idealize.ShloMosaic Idealize.ShloMosaic.TcCoe Idealize.SL.Sem
open Cert.ReferenceIdeal.Read (val_main_v4 val_main_v12 val_main_v17 val_main_v18 val_main_v22 val_main_v35 val_main_v36 val_main_v38)

variable (m : (ℓ : Loc nD τ sig) → Buf (Elt Ideal) ℓ) (ρ : Dev nD → PrngReg) (c : Dev nD)

/-! ## Buffers a segment leaves alone -/

theorem at_launch (r : Ref sig .tc) (h : r ∉ Stretch.written0) :
    W1 m ρ c (Proc.devRef .tc r) = m ((c : Thread nD τ).loc r) :=
  Stretch.keep0 (W0 m ρ c) r h
theorem past_call0 (r : Ref sig .tc) (h : ∀ w, Pipeline.arrRef spec0 w ≠ r) :
    W2 m ρ c (Proc.devRef .tc r) = W1 m ρ c (Proc.devRef .tc r) := W2_of_ne m ρ c r h
theorem past_mid (r : Ref sig .tc) (h : r ∉ Stretch.written1) :
    W3 m ρ c (Proc.devRef .tc r) = W2 m ρ c (Proc.devRef .tc r) := Stretch.keep1 (W2 m ρ c) r h
theorem past_call1 (r : Ref sig .tc) (h : ∀ w, Pipeline.arrRef spec1 w ≠ r) :
    W4 m ρ c (Proc.devRef .tc r) = W3 m ρ c (Proc.devRef .tc r) := W4_of_ne m ρ c r h

/-! ## The index rows and the weight column, at every later boundary -/

/-- The source row of the edge list. -/
abbrev src : (⟨S1600000, .i32⟩ : BufTy).Contents (Elt Ideal) :=
  shapeCast S1600000 (extractStridedSlice S1x1600000 ![0, 0] (m ((c : Thread nD τ).loc main_arg1)) slices_S2x1600000_S1x1600000_0_0) shapeCasts_S1x1600000_S1600000
/-- The destination row of the edge list. -/
abbrev dst : (⟨S1600000, .i32⟩ : BufTy).Contents (Elt Ideal) :=
  shapeCast S1600000 (extractStridedSlice S1x1600000 ![1, 0] (m ((c : Thread nD τ).loc main_arg1)) slices_S2x1600000_S1x1600000_1_0) shapeCasts_S1x1600000_S1600000
/-- The edge weights as a column. -/
abbrev wcolumn : (⟨S1600000x1, .f32⟩ : BufTy).Contents (Elt Ideal) :=
  shapeCast S1600000x1 (m ((c : Thread nD τ).loc main_arg2)) shapeCasts_S1600000_S1600000x1

theorem src_W1 : W1 m ρ c (Proc.devRef .tc main_v1) = src m c := Stretch.pre_src (W0 m ρ c)
theorem dst_W1 : W1 m ρ c (Proc.devRef .tc main_v3) = dst m c := Stretch.pre_dst (W0 m ρ c)
theorem wcol_W1 : W1 m ρ c (Proc.devRef .tc main_v4) = wcolumn m c := Stretch.pre_weight (W0 m ρ c)

theorem src_W2 : W2 m ρ c (Proc.devRef .tc main_v1) = src m c := (past_call0 m ρ c main_v1 (by decide)).trans (src_W1 m ρ c)
theorem dst_W2 : W2 m ρ c (Proc.devRef .tc main_v3) = dst m c := (past_call0 m ρ c main_v3 (by decide)).trans (dst_W1 m ρ c)
theorem wcol_W2 : W2 m ρ c (Proc.devRef .tc main_v4) = wcolumn m c := (past_call0 m ρ c main_v4 (by decide)).trans (wcol_W1 m ρ c)

theorem src_W4 : W4 m ρ c (Proc.devRef .tc main_v1) = src m c :=
  (past_call1 m ρ c main_v1 (by decide)).trans ((past_mid m ρ c main_v1 (by decide)).trans (src_W2 m ρ c))
theorem dst_W4 : W4 m ρ c (Proc.devRef .tc main_v3) = dst m c :=
  (past_call1 m ρ c main_v3 (by decide)).trans ((past_mid m ρ c main_v3 (by decide)).trans (dst_W2 m ρ c))
theorem wcol_W4 : W4 m ρ c (Proc.devRef .tc main_v4) = wcolumn m c :=
  (past_call1 m ρ c main_v4 (by decide)).trans ((past_mid m ρ c main_v4 (by decide)).trans (wcol_W2 m ρ c))

/-! ## The arguments where the segments read them -/

theorem arg4_W2 : W2 m ρ c (Proc.devRef .tc main_arg4) = m ((c : Thread nD τ).loc main_arg4) :=
  (past_call0 m ρ c main_arg4 (by decide)).trans (at_launch m ρ c main_arg4 (by decide))
theorem arg5_W3 : W3 m ρ c (Proc.devRef .tc main_arg5) = m ((c : Thread nD τ).loc main_arg5) :=
  (past_mid m ρ c main_arg5 (by decide)).trans ((past_call0 m ρ c main_arg5 (by decide)).trans (at_launch m ρ c main_arg5 (by decide)))
theorem arg6_W4 : W4 m ρ c (Proc.devRef .tc main_arg6) = m ((c : Thread nD τ).loc main_arg6) :=
  (past_call1 m ρ c main_arg6 (by decide)).trans ((past_mid m ρ c main_arg6 (by decide)).trans
    ((past_call0 m ρ c main_arg6 (by decide)).trans (at_launch m ρ c main_arg6 (by decide))))

/-! ## The four arrays the segments compute -/

/-- The first region leaves `x · W1`. -/
theorem product_W2 : W2 m ρ c (Proc.devRef .tc main_v5)
    = val_main_v4 (F := Ideal) (m ((c : Thread nD τ).loc main_arg0)) (m ((c : Thread nD τ).loc main_arg3)) :=
  (W2_arr m ρ c 2).trans ((Layer1.array_eq (V1 m ρ) c).trans
    (congrArg₂ (val_main_v4 (F := Ideal)) (at_launch m ρ c main_arg0 (by decide)) (at_launch m ρ c main_arg3 (by decide))))

/-- The stretch between the regions leaves the first aggregation of it. -/
theorem agg_W3 : W3 m ρ c (Proc.devRef .tc main_v17)
    = Stretch.aggregate128 (val_main_v4 (F := Ideal) (m ((c : Thread nD τ).loc main_arg0)) (m ((c : Thread nD τ).loc main_arg3)))
        (src m c) (dst m c) (wcolumn m c) :=
  (Stretch.mid_agg (W2 m ρ c)).trans (by rw [product_W2, src_W2, dst_W2, wcol_W2])

/-- and the first bias as a row. -/
theorem bias_W3 : W3 m ρ c (Proc.devRef .tc main_v18)
    = shapeCast S1x128 (m ((c : Thread nD τ).loc main_arg4)) shapeCasts_S128_S1x128 :=
  (Stretch.mid_bias (W2 m ρ c)).trans (by rw [arg4_W2])

/-- The second region leaves `hiddenAt` of them and `W2`. -/
theorem hidden_W4 : W4 m ρ c (Proc.devRef .tc main_v19)
    = Layer2.hiddenAt
        (Stretch.aggregate128 (val_main_v4 (F := Ideal) (m ((c : Thread nD τ).loc main_arg0)) (m ((c : Thread nD τ).loc main_arg3)))
          (src m c) (dst m c) (wcolumn m c))
        (shapeCast S1x128 (m ((c : Thread nD τ).loc main_arg4)) shapeCasts_S128_S1x128)
        (m ((c : Thread nD τ).loc main_arg5)) :=
  (W4_arr m ρ c 3).trans ((Layer2.array_eq (V3 m ρ) c).trans (by
    rw [show V3 m ρ c main_v17 = _ from agg_W3 m ρ c, show V3 m ρ c main_v18 = _ from bias_W3 m ρ c,
      show V3 m ρ c main_arg5 = _ from arg5_W3 m ρ c]))

/-- The last stretch leaves the second aggregation of it plus the second bias. -/
theorem out_W5 : W5 m ρ c (Proc.devRef .tc main_v34)
    = addf (Stretch.aggregate64
        (Layer2.hiddenAt
          (Stretch.aggregate128 (val_main_v4 (F := Ideal) (m ((c : Thread nD τ).loc main_arg0)) (m ((c : Thread nD τ).loc main_arg3)))
            (src m c) (dst m c) (wcolumn m c))
          (shapeCast S1x128 (m ((c : Thread nD τ).loc main_arg4)) shapeCasts_S128_S1x128)
          (m ((c : Thread nD τ).loc main_arg5)))
        (src m c) (dst m c) (wcolumn m c))
      (broadcastInDim S50000x64 ![0, 1] bcast_S1x64_S50000x64_0_1 (shapeCast S1x64 (m ((c : Thread nD τ).loc main_arg6)) shapeCasts_S64_S1x64)) :=
  (Stretch.tail_out (W4 m ρ c)).trans (by rw [hidden_W4, src_W4, dst_W4, wcol_W4, arg6_W4])

/-! ## The result is the reference's result term -/

/-- The first aggregation of `x · W1`, with the weights spelt as the reference spells them, is the reference's
    aggregated stage: the same operations of the same arrays. -/
theorem agg_stage : Stretch.aggregate128 (val_main_v4 (F := Ideal) (m ((c : Thread nD τ).loc main_arg0)) (m ((c : Thread nD τ).loc main_arg3))) (src m c) (dst m c) (val_main_v12 (F := Ideal) (m ((c : Thread nD τ).loc main_arg2)))
    = val_main_v17 (F := Ideal) (m ((c : Thread nD τ).loc main_arg0)) (m ((c : Thread nD τ).loc main_arg1)) (m ((c : Thread nD τ).loc main_arg2)) (m ((c : Thread nD τ).loc main_arg3)) := rfl

/-- After the run the result buffer holds the reference's result term of the kernel's arguments. -/
theorem result_eq : W5 m ρ c (Proc.devRef .tc main_v34)
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [out_W5]
  unfold wcolumn
  rw [Cert.ReferenceIdeal.Bridge.weight_column, Cert.ReferenceIdeal.Bridge.bias_row128, Cert.ReferenceIdeal.Bridge.bias_row64]
  rw [agg_stage, ← Cert.ReferenceIdeal.Bridge.hidden_stage]
  rfl

end Cert.KernelIdeal.Result

end
-- ==== Proof.lean ====
/-
  A two-layer graph convolution against its plain reference, at the ideal instance.

  Both programs compute, for node features `x`, an edge list `(src, dst)` with weights `w`, and parameters
  `W1, b1, W2, b2`:

      h   = x · W1
      a   = Σ over edges e of  w e · h (src e)   added into row  dst e      (starting from zeros)
      h'  = max (a + b1, 0) · W2
      out = ( Σ over edges e of  w e · h' (src e)  added into row  dst e )  +  b2

  The kernel computes the two dense products in pallas_calls over 25 blocks of 2000 rows (the second fused with the
  bias and the clamp at zero) and everything else on the host; the reference computes everything on the host.  At
  the ideal instance the kernel's casts to bf16 are the identity and a matrix product is the exact sum over the
  contracted axis, so each pallas_call's output array is the host's `dot_general` of the same arrays
  (Layer1Value, Layer2Value, RefBridge); the gathers, scalings and scatter-adds around them are the same host
  operations on both sides (HostStretches), up to three arrays the kernel reshapes where the reference broadcasts
  along a unit axis (RefBridge).  No law of the extended reals beyond that is used: the two results are the same
  sums of the same products in the same arrangement, so finiteness of the inputs is never needed.  The kernel's run
  with its result named is KernelRun; KernelValue walks that result back to the arguments.
  The ideal pass rewrote nothing, so `preserves` is `True`.
-/
import proofs.«120899_j59828894433328_2_alg».proof.Defs
import proofs.«120899_j59828894433328_2_alg».proof.Proof.Gen.Kernel
import proofs.«120899_j59828894433328_2_alg».proof.Proof.Gen.Kernel.Skeleton
import proofs.«120899_j59828894433328_2_alg».proof.Proof.Gen.Kernel.Launch
import proofs.«120899_j59828894433328_2_alg».proof.Proof.Gen.Kernel.Points
import proofs.«120899_j59828894433328_2_alg».proof.Proof.Gen.Kernel.Frame
import proofs.«120899_j59828894433328_2_alg».proof.Proof.Gen.KernelIdeal
import proofs.«120899_j59828894433328_2_alg».proof.Proof.Gen.KernelIdeal.Skeleton
import proofs.«120899_j59828894433328_2_alg».proof.Proof.Gen.KernelIdeal.Launch
import proofs.«120899_j59828894433328_2_alg».proof.Proof.Gen.KernelIdeal.Points
import proofs.«120899_j59828894433328_2_alg».proof.Proof.Gen.KernelIdeal.Frame
import proofs.«120899_j59828894433328_2_alg».proof.Proof.Gen.ReferenceIdeal
import proofs.«120899_j59828894433328_2_alg».proof.Proof.Gen.ReferenceIdeal.Run
import proofs.«120899_j59828894433328_2_alg».proof.Proof.Gen.ReferenceIdeal.Read
import proofs.«120899_j59828894433328_2_alg».proof.Proof.Gen.Pre_finite_inputs
import proofs.«120899_j59828894433328_2_alg».proof.Proof.KernelRun
import proofs.«120899_j59828894433328_2_alg».proof.Proof.KernelValue
import Idealize.ShloMosaic.Adequacy
import Idealize.ShloMosaic.Init

noncomputable section

namespace Cert.Proof

open Idealize.ShloMosaic Idealize.SL.Sem

/-- The word-level kernel terminates without a fault and leaves its arguments alone. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- So does the idealized reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the reference's result term of those arguments:
    the kernel by walking its result back through its segments, the reference by its own run. -/
theorem algebraic : Cert.algebraic_KernelIdeal_ReferenceIdeal := by
  intro m ρ m' ρ' _ hagree
  refine ⟨fun c => Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Result.result_eq m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v38_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
